-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S2048x64 : Shape := ⟨2, ![2048, 64]⟩
abbrev S512x64 : Shape := ⟨2, ![512, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S2048x64, .bf16⟩
  | .local _ .vmem, ⟨9, _⟩ => ⟨S2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x64_S32x2048x64 : S2x16x2048x64.ShapeCasts S32x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  shapeCasts_S32x2048x64_S2x16x2048x64 : S32x2048x64.ShapeCasts S2x16x2048x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048, .f32⟩
  | .hbm, ⟨12, _⟩ => ⟨S_, .f32⟩
  | .hbm, ⟨13, _⟩ => ⟨S2x16x2048, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KerPieces.lean ====
/-
  What one run of the kernel body leaves behind, read as values.

  The body has two cases. At the first query tile of a (batch, head) pair it first copies the pair's whole key block and
  whole value block (rounded to bf16, which is the identity on extended reals) into the two scratch buffers, and then
  computes the output tile from the query tile and from what it has just stored. At the other three query tiles it stores
  nothing into the scratch and computes the output tile from the query tile and from what the scratch already holds.
  In both cases the output buffer is written by ONE store covering it, so what it holds afterwards is that store's value:
  the body's arithmetic (`k0_pay3`) of the loaded query tile and of the two scratch contents.
-/
import proofs.«103621_j15436112462557_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a pair: the key scratch ends holding the (rounded) key block. -/
theorem sout_A_0 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (hc0 : cond0_0 i) (x0 : Vec F S1x512x64 .f32) (x1 : Vec F S1x2048x64 .f32) (x2 : Vec F S1x2048x64 .f32) :
    sout0_A_0 c i arg2 harg2 arg3 harg3 arg4 harg4 arg5 harg5 arg6 harg6 arg7 harg7 hc0 x0 x1 x2 = k0_pay1 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg3.read_unread, View.ld_unit_zero (S := S1x2048x64) hz3]

/-- First tile of a pair: the value scratch ends holding the (rounded) value block. -/
theorem sout_A_1 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (hc0 : cond0_0 i) (x0 : Vec F S1x512x64 .f32) (x1 : Vec F S1x2048x64 .f32) (x2 : Vec F S1x2048x64 .f32) :
    sout0_A_1 c i arg2 harg2 arg3 harg3 arg4 harg4 arg5 harg5 arg6 harg6 arg7 harg7 hc0 x0 x1 x2 = k0_pay2 x2 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg4.read_unread, View.ld_unit_zero (S := S1x2048x64) hz3]

/-- First tile of a pair: the output tile is the body's arithmetic of the query tile and of the two blocks just stored. -/
theorem out_A_3 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (hc0 : cond0_0 i) (x0 : Vec F S1x512x64 .f32) (x1 : Vec F S1x2048x64 .f32) (x2 : Vec F S1x2048x64 .f32) :
    out0_A_3 c i arg2 harg2 arg3 harg3 arg4 harg4 arg5 harg5 arg6 harg6 arg7 harg7 hc0 x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz3, View.readCov_unit_zero (S := S2048x64) _ hz2, View.readCov_unit_zero (S := S2048x64) _ hz2]
  simp only [View.readAt_eq_ld, harg2.read_unread, harg3.read_unread, harg4.read_unread,
    View.ld_unit_zero (S := S1x2048x64) hz3, View.ld_unit_zero (S := S1x512x64) hz3]

/-- Later tiles of a pair: the output tile is the body's arithmetic of the query tile and of the scratch as found. -/
theorem out_B_3 (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x64 .f32) (harg5 : arg5.IsWhole) (arg6 : Memref sig .tc .vmem S2048x64 .bf16) (harg6 : arg6.IsWhole) (arg7 : Memref sig .tc .vmem S2048x64 .bf16) (harg7 : arg7.IsWhole) (hc0 : ¬cond0_0 i) (x0 : Vec F S1x512x64 .f32) (x1 : Vec F S1x2048x64 .f32) (x2 : Vec F S1x2048x64 .f32) (xs0 xs1 : Vec F S2048x64 .bf16) :
    out0_B_3 c i arg2 harg2 arg3 harg3 arg4 harg4 arg5 harg5 arg6 harg6 arg7 harg7 hc0 x0 x1 x2 xs0 xs1 = k0_pay3 x0 xs0 xs1 := by
  unfold out0_B_3
  rw [View.read_writes_eq_canon _ _ _ (cover0_B_3 c i arg2 harg2 arg3 harg3 arg4 harg4 arg5 harg5 arg6 harg6 arg7 harg7 hc0 x0 x1 x2 xs0 xs1)]
  unfold kernelRun0_B
  dsimp only
  sl_unfold_words
  rw [View.canon_unit_zero hz3]
  simp only [View.readAt_eq_ld, harg2.read_unread, harg6.read_unread, harg7.read_unread,
    View.ld_unit_zero (S := S2048x64) hz2, View.ld_unit_zero (S := S1x512x64) hz3]

end Cert.KernelIdeal.Pieces

end
-- ==== Proof.KerChain.lean ====
/-
  What the output buffer and the two scratch buffers hold after each grid point.

  The grid runs the four query tiles of a (batch, head) pair one after the other, pair after pair. The first tile of a pair
  fills the scratch with the pair's key and value blocks; the other three find them there. Since the key and value
  windows do not move within a pair (their block is the pair's whole [2048, 64] slab), after EVERY point the scratch holds
  the CURRENT point's key and value blocks, and the output buffer holds the body's arithmetic of the current query tile
  and of those two blocks — by induction on the point, never by enumerating the 128 points.
-/
import proofs.«103621_j15436112462557_2_alg».proof.Proof.KerPieces

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Pieces
variable {F : FTy → Type} [FloatOps F]
variable (m : (ℓ : Loc nD τ sig) → Buf (Elt F) ℓ)

/-- What the three buffers hold after point `t`: the output buffer at the body's arithmetic of the point's three blocks,
    the scratch at the point's (rounded) key and value blocks. -/
abbrev held (c : Dev nD) (t : Fin cfg0.N) : Vec F S1x512x64 .f32 × Vec F S2048x64 .bf16 × Vec F S2048x64 .bf16 :=
  (k0_pay3 (iblk m c 0 t) (k0_pay1 (iblk m c 1 t)) (k0_pay2 (iblk m c 2 t)), k0_pay1 (iblk m c 1 t), k0_pay2 (iblk m c 2 t))

/-- At the first tile of a pair the body itself establishes it. -/
theorem first_tile (c : Dev nD) (t : Fin cfg0.N) (h0 : t.val % 4 = 0) : outsAt0 m c t.val t.isLt = held m c t := by
  have a3 : out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)
      = k0_pay3 (iblk m c 0 t) (k0_pay1 (iblk m c 1 t)) (k0_pay2 (iblk m c 2 t)) :=
    out_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)
  have a0 : sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t) = k0_pay1 (iblk m c 1 t) :=
    sout_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)
  have a1 : sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t) = k0_pay2 (iblk m c 2 t) :=
    sout_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)
  rw [outsAt0_A m c t h0, a3, a0, a1]

/-- At a later tile it is inherited from the point before, whose key and value blocks are the same. -/
theorem later_tile (c : Dev nD) (t : Fin cfg0.N) (h0 : ¬t.val % 4 = 0)
    (ih : outsAt0 m c (t.val - 1) (Nat.lt_of_le_of_lt (Nat.sub_le _ _) t.isLt) = held m c (⟨t.val - 1, Nat.lt_of_le_of_lt (Nat.sub_le _ _) t.isLt⟩ : Fin cfg0.N))
    (hk : (iblk m c 1 t : Vec F S1x2048x64 .f32) = iblk m c 1 (⟨t.val - 1, Nat.lt_of_le_of_lt (Nat.sub_le _ _) t.isLt⟩ : Fin cfg0.N))
    (hv : (iblk m c 2 t : Vec F S1x2048x64 .f32) = iblk m c 2 (⟨t.val - 1, Nat.lt_of_le_of_lt (Nat.sub_le _ _) t.isLt⟩ : Fin cfg0.N)) :
    outsAt0 m c t.val t.isLt = held m c t := by
  have e1 : (outsAt0 m c (t.val - 1) (Nat.lt_of_le_of_lt (Nat.sub_le _ _) t.isLt)).2.1 = k0_pay1 (iblk m c 1 t) := by
    rw [ih, hk]
  have e2 : (outsAt0 m c (t.val - 1) (Nat.lt_of_le_of_lt (Nat.sub_le _ _) t.isLt)).2.2 = k0_pay2 (iblk m c 2 t) := by
    rw [ih, hv]
  have b3 : ∀ xs0 xs1 : Vec F S2048x64 .bf16, out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (iblk m c 0 t) (iblk m c 1 t) (iblk m c 2 t) xs0 xs1
      = k0_pay3 (iblk m c 0 t) xs0 xs1 :=
    fun xs0 xs1 => out_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (iblk m c 0 t) (iblk m c 1 t) (iblk m c 2 t) xs0 xs1
  rw [outsAt0_B m c t h0, b3]
  unfold sout0_B_0 sout0_B_1
  rw [e1, e2]

/-- After EVERY point — by induction on the point — given that the key and value blocks do not change from a point to
    the next one within a pair (`hk`, `hv`). -/
theorem outsAt_eq (c : Dev nD)
    (hk : ∀ t : Fin cfg0.N, ¬t.val % 4 = 0 → (iblk m c 1 t : Vec F S1x2048x64 .f32) = iblk m c 1 (⟨t.val - 1, Nat.lt_of_le_of_lt (Nat.sub_le _ _) t.isLt⟩ : Fin cfg0.N))
    (hv : ∀ t : Fin cfg0.N, ¬t.val % 4 = 0 → (iblk m c 2 t : Vec F S1x2048x64 .f32) = iblk m c 2 (⟨t.val - 1, Nat.lt_of_le_of_lt (Nat.sub_le _ _) t.isLt⟩ : Fin cfg0.N)) :
    ∀ (n : ℕ) (t : Fin cfg0.N), t.val = n → outsAt0 m c t.val t.isLt = held m c t
  | 0, t, ht => first_tile m c t (by omega)
  | n + 1, t, ht => by
    by_cases h0 : t.val % 4 = 0
    · exact first_tile m c t h0
    · exact later_tile m c t h0 (outsAt_eq c hk hv n (⟨t.val - 1, Nat.lt_of_le_of_lt (Nat.sub_le _ _) t.isLt⟩ : Fin cfg0.N) (by show t.val - 1 = n; omega)) (hk t h0) (hv t h0)

end Cert.KernelIdeal.Chain

end
-- ==== Proof.Spec.lean ====
/-
  Scaled dot-product attention, one output element at a time, over the extended reals.

  For one (batch, head) pair write q_s, k_t, v_t ∈ EReal^64 for the rows of the three inputs (s, t < 2048).
  Both programs compute, for a query row s and an output column e,

      out(s, e) = Σ_t softmax_t(score(s, ·)) · v_t(e),      score(s, t) = ⟨q_s, k_t⟩ / 2,

  but they arrange the arithmetic differently:
    * one side scales the query first, `Σ_d (q_s(d) · ½) · k_t(d)`, subtracts the row maximum, exponentiates,
      multiplies the UNNORMALISED weights into v and divides the finished sum by the weights' total (`kerOut`);
    * the other scales the finished dot product by `1 / √4`, takes the maximum once more against −∞,
      normalises every weight by `0 + Σ` of the weights and only then multiplies into v (`refOut`).
  This module only names the two arrangements; that they agree on finite inputs is proved in the algebra module.
-/
import Idealize.ShloMosaic.PureOps.Ideal

noncomputable section

namespace Cert.Attn

open Idealize.ShloMosaic

/-- The scale folded into the query: the pattern of `0.5`. -/
abbrev H : EReal := Ideal.ofBits .f32 0x3F000000#32
/-- The pattern of `-∞`, from which both row maxima start. -/
abbrev NI : EReal := Ideal.ofBits .f32 0xFF800000#32
/-- The pattern of `+0.0`, from which the normaliser's sum starts on one side. -/
abbrev Z : EReal := Ideal.ofBits .f32 0x00000000#32
/-- The scale applied to the finished dot product: `1 / √4`, computed from the patterns of `1.0` and `4.0`. -/
abbrev C : EReal := Ideal.div (Ideal.ofBits .f32 0x3F800000#32) (Ideal.sqrt (Ideal.ofBits .f32 0x40800000#32))

/-- The score of key row `t` with the query scaled first. -/
def kscore (q : Fin 64 → EReal) (k : Fin 2048 → Fin 64 → EReal) (t : Fin 2048) : EReal :=
  ∑ d : Fin 64, (q d * H) * k t d

/-- The score of key row `t` with the dot product scaled afterwards. -/
def rscore (q : Fin 64 → EReal) (k : Fin 2048 → Fin 64 → EReal) (t : Fin 2048) : EReal :=
  (∑ d : Fin 64, q d * k t d) * C

/-- A row's maximum, folded from `-∞`. -/
def rowmax (s : Fin 2048 → EReal) : EReal :=
  (Finset.univ : Finset (Fin 2048)).fold max NI s

/-- Normalise last: `(Σ_t e^{s_t - max} · v_t) / Σ_t e^{s_t - max}`. -/
def kerOut (s v : Fin 2048 → EReal) : EReal :=
  Ideal.div (∑ t : Fin 2048, Ideal.exp (s t - rowmax s) * v t) (∑ t : Fin 2048, Ideal.exp (s t - rowmax s))

/-- Normalise first: `Σ_t (e^{s_t - max'} / (0 + Σ_u e^{s_u - max'})) · v_t` with `max' = max(-∞, max)`. -/
def refOut (s v : Fin 2048 → EReal) : EReal :=
  ∑ t : Fin 2048, Ideal.div (Ideal.exp (s t - max NI (rowmax s)))
    (Z + ∑ u : Fin 2048, Ideal.exp (s u - max NI (rowmax s))) * v t

end Cert.Attn

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KerPayload.lean ====
/-
  The kernel body's arithmetic read at one output element, over the extended reals.

  The body receives a query tile `x0` ([1, 512, 64]) and the two scratch contents `xk`, `xv` ([2048, 64], the key and
  the value block of the tile's (batch, head) pair). For row `r` of the tile and output column `e` it computes
      score_t = Σ_d (x0(r, d) · ½) · xk(t, d)          (the query scaled first; a matrix product with xkᵀ)
      m       = max_t score_t   (from −∞),   w_t = exp(score_t − m),   total = Σ_t w_t
      out     = (Σ_t w_t · xv(t, e)) / total
  which is `kerOut (kscore …) …` of the specification. Each non-pointwise operation is read at an index by its own
  small lemma (the two matrix products as sums over the contracted axis, the two lane reductions as a fold of max and
  a sum over the lanes, the keep-dimension column casts and broadcasts); rounding to bf16 is the identity here.
-/
import proofs.«103621_j15436112462557_2_alg».proof.Proof.Gen.KernelIdeal.Skeleton
import proofs.«103621_j15436112462557_2_alg».proof.Proof.Spec
import proofs.«103621_j15436112462557_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.Payload

open Cert.KernelIdeal Cert.KernelIdeal.Gen Idealize.ShloMosaic.ValueIdx Cert.Attn

/-- The dot of the scores: [512, 64] × [64, 2048], contracting the 64. -/
abbrev D1 : DotDims S512x64 S64x2048 S512x2048 := dot_S512x64_S64x2048_S512x2048_1_0_0_1_n_n
/-- The dot of the output: [512, 2048] × [2048, 64], contracting the 2048. -/
abbrev D2 : DotDims S512x2048 S2048x64 S512x64 := dot_S512x2048_S2048x64_S512x64_1_0_0_1_n_n

/-- The key (or value) block as stored in the scratch: entry (t, d) of the block. -/
theorem pay1_apply (x : Vec Ideal S1x2048x64 .f32) (t : Fin 2048) (d : Fin 64) :
    k0_pay1 (F := Ideal) x (ix2 t d) = x (ix3 (0 : Fin 1) t d) := by
  unfold k0_pay1
  rw [shapeCast_self]
  exact shapeCast_1ab_ab_apply x _ t d

theorem pay2_apply (x : Vec Ideal S1x2048x64 .f32) (t : Fin 2048) (d : Fin 64) :
    k0_pay2 (F := Ideal) x (ix2 t d) = x (ix3 (0 : Fin 1) t d) := by
  unfold k0_pay2
  rw [shapeCast_self]
  exact shapeCast_1ab_ab_apply x _ t d

/-- The operand indices of the two dots on their kept axes (the contracted ones are the library's `lhsIdx_val_of_single`). -/
theorem lhs1_0 (i : S512x2048.Idx) (q : D1.contr.Idx) : (D1.lhsIdx i q 0).val = (i 0).val := by
  unfold DotDims.lhsIdx
  rw [dif_neg (show ¬(0 : Fin S512x64.rank) ∈ D1.lhsBatch by decide), dif_pos (show (0 : Fin S512x64.rank) ∈ D1.lhsNonContracting by decide)]
  rfl
theorem rhs1_1 (i : S512x2048.Idx) (q : D1.contr.Idx) : (D1.rhsIdx i q 1).val = (i 1).val := by
  unfold DotDims.rhsIdx
  rw [dif_neg (show ¬(1 : Fin S64x2048.rank) ∈ D1.rhsBatch by decide), dif_pos (show (1 : Fin S64x2048.rank) ∈ D1.rhsNonContracting by decide)]
  rfl
theorem lhs2_0 (i : S512x64.Idx) (q : D2.contr.Idx) : (D2.lhsIdx i q 0).val = (i 0).val := by
  unfold DotDims.lhsIdx
  rw [dif_neg (show ¬(0 : Fin S512x2048.rank) ∈ D2.lhsBatch by decide), dif_pos (show (0 : Fin S512x2048.rank) ∈ D2.lhsNonContracting by decide)]
  rfl
theorem rhs2_1 (i : S512x64.Idx) (q : D2.contr.Idx) : (D2.rhsIdx i q 1).val = (i 1).val := by
  unfold DotDims.rhsIdx
  rw [dif_neg (show ¬(1 : Fin S2048x64.rank) ∈ D2.rhsBatch by decide), dif_pos (show (1 : Fin S2048x64.rank) ∈ D2.rhsNonContracting by decide)]
  rfl

/-- The scores' matrix product at (r, t): the sum over the 64 contracted coordinates. -/
theorem scores_apply (A : FVec Ideal S512x64 .bf16) (B : FVec Ideal S64x2048 .bf16) (r : Fin 512) (t : Fin 2048) :
    matmul D1 none A B (constant S512x2048 .f32 0x00000000#32) (ix2 r t) = ∑ d : Fin 64, A (ix2 r d) * B (ix2 d t) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix2 r t) ((contrEquiv1 D1 64 rfl rfl).symm k) = ix2 r k := funext fun a => Fin.ext (by
    match a with
    | ⟨0, _⟩ => exact lhs1_0 _ _
    | ⟨1, _⟩ => exact (D1.lhsIdx_val_of_single rfl _ _).trans hk)
  have er : D1.rhsIdx (ix2 r t) ((contrEquiv1 D1 64 rfl rfl).symm k) = ix2 k t := funext fun a => Fin.ext (by
    match a with
    | ⟨0, _⟩ => exact (D1.rhsIdx_val_of_single rfl _ _).trans hk
    | ⟨1, _⟩ => exact rhs1_1 _ _)
  rw [el, er]

/-- The output's matrix product at (r, e): the sum over the 2048 contracted coordinates. -/
theorem pv_apply (A : FVec Ideal S512x2048 .bf16) (B : FVec Ideal S2048x64 .bf16) (r : Fin 512) (e : Fin 64) :
    matmul D2 none A B (constant S512x64 .f32 0x00000000#32) (ix2 r e) = ∑ t : Fin 2048, A (ix2 r t) * B (ix2 t e) := by
  simp only [matmul]
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix2 r e) ((contrEquiv1 D2 2048 rfl rfl).symm k) = ix2 r k := funext fun a => Fin.ext (by
    match a with
    | ⟨0, _⟩ => exact lhs2_0 _ _
    | ⟨1, _⟩ => exact (D2.lhsIdx_val_of_single rfl _ _).trans hk)
  have er : D2.rhsIdx (ix2 r e) ((contrEquiv1 D2 2048 rfl rfl).symm k) = ix2 k e := funext fun a => Fin.ext (by
    match a with
    | ⟨0, _⟩ => exact (D2.rhsIdx_val_of_single rfl _ _).trans hk
    | ⟨1, _⟩ => exact rhs2_1 _ _)
  rw [el, er]

/-- A row's index with the lane put back. -/
theorem lift_row (h : S512x2048.Reduces [1] S512) (r : Fin 512) (k : Fin 2048) : h.lift (ix1 r) k = ix2 r k :=
  funext fun a => Fin.ext (by match a with | ⟨0, _⟩ => rfl | ⟨1, _⟩ => rfl)

/-- The lane maximum of row r, from −∞: the specification's row maximum of that row. -/
theorem lanemax_apply (X : FVec Ideal S512x2048 .f32) (h : S512x2048.Reduces [1] S512) (hφ : FKind.Formats .f32)
    (hacc : (0xFF800000#32 : BitVec 32) = FKind.maximumf.neutral .f32 hφ) (r : Fin 512) :
    multiReduction .maximumf [1] S512 X 0xFF800000#32 h hφ hacc (ix1 r) = rowmax (fun t => X (ix2 r t)) := by
  refine (Ideal.multiReduction_maximumf_single X 0xFF800000#32 h hφ hacc (ix1 r)).trans ?_
  have hf : (X ∘ h.lift (ix1 r)) = fun t : Fin 2048 => X (ix2 r t) := funext fun k => congrArg X (lift_row h r k)
  exact congrArg (fun f => Finset.fold max (Ideal.ofBits .f32 0xFF800000#32) f (Finset.univ : Finset (Fin 2048))) hf

/-- The lane sum of row r. -/
theorem lanesum_apply (X : FVec Ideal S512x2048 .f32) (h : S512x2048.Reduces [1] S512) (hφ : FKind.Formats .f32)
    (hacc : (0x00000000#32 : BitVec 32) = FKind.add.neutral .f32 hφ) (r : Fin 512) :
    multiReduction .add [1] S512 X 0x00000000#32 h hφ hacc (ix1 r) = ∑ t : Fin 2048, X (ix2 r t) := by
  refine (Ideal.multiReduction_add_single X 0x00000000#32 h hφ hacc (ix1 r)).trans ?_
  exact Finset.sum_congr rfl fun k _ => congrArg X (lift_row h r k)

/-- A per-row quantity kept as a column and broadcast along the 2048 lanes reads the row's entry. -/
theorem col_lanes (M : FVec Ideal S512 .f32) (h1 : S512.ShapeCasts S512x1) (h2 : S512x1.Broadcasts S512x2048) (r : Fin 512) (t : Fin 2048) :
    broadcastTo S512x2048 (shapeCast S512x1 M h1) h2 (ix2 r t) = M (ix1 r) :=
  (Cert.Keepdims.broadcastTo_a1_ab_apply (shapeCast S512x1 M h1) h2 r t).trans (Cert.Keepdims.shapeCast_a_a1_apply M h1 r 0)

/-- The same along the 64 output columns. -/
theorem col_cols (M : FVec Ideal S512 .f32) (h1 : S512.ShapeCasts S512x1) (h2 : S512x1.Broadcasts S512x64) (r : Fin 512) (e : Fin 64) :
    broadcastTo S512x64 (shapeCast S512x1 M h1) h2 (ix2 r e) = M (ix1 r) :=
  (Cert.Keepdims.broadcastTo_a1_ab_apply (shapeCast S512x1 M h1) h2 r e).trans (Cert.Keepdims.shapeCast_a_a1_apply M h1 r 0)

/-! ## The body's arithmetic, one intermediate value at a time -/

/-- The score tile: the query tile scaled by ½ (and rounded), times the transposed key block. -/
def scoreTile (x0 : FVec Ideal S1x512x64 .f32) (xk : FVec Ideal S2048x64 .bf16) : FVec Ideal S512x2048 .f32 :=
  matmul D1 none
    (truncf .bf16 (mulf (shapeCast S512x64 x0 shapeCasts_S1x512x64_S512x64) (broadcast S512x64 (Scalar.ofBits .f32 0x3F000000#32))) bitsLt_bf16_f32)
    (transpose S64x2048 [1, 0] xk transposes_S2048x64_p1_0_S64x2048) (constant S512x2048 .f32 0x00000000#32)

/-- The rows' maxima. -/
def rowMaxes (S : FVec Ideal S512x2048 .f32) : FVec Ideal S512 .f32 :=
  multiReduction .maximumf [1] S512 S 0xFF800000#32 reduces_S512x2048_S512 (.inl rfl) rfl

/-- The unnormalised weights: exp (score − row maximum). -/
def weights (S : FVec Ideal S512x2048 .f32) : FVec Ideal S512x2048 .f32 :=
  exp (subf S (broadcastTo S512x2048 (shapeCast S512x1 (rowMaxes S) shapeCasts_S512_S512x1) broadcasts_S512x1_S512x2048))

/-- The rows' totals of the weights. -/
def totals (E : FVec Ideal S512x2048 .f32) : FVec Ideal S512 .f32 :=
  multiReduction .add [1] S512 E 0x00000000#32 reduces_S512x2048_S512 (.inl rfl) rfl

/-- The output tile: (weights × value block) divided row by row by the totals. -/
def outTile (E : FVec Ideal S512x2048 .f32) (xv : FVec Ideal S2048x64 .bf16) : FVec Ideal S512x64 .f32 :=
  divf (matmul D2 none (truncf .bf16 E bitsLt_bf16_f32) xv (constant S512x64 .f32 0x00000000#32))
    (broadcastTo S512x64 (shapeCast S512x1 (totals E) shapeCasts_S512_S512x1) broadcasts_S512x1_S512x64)

/-- The stored value is these, composed. -/
theorem pay3_eq (x0 : FVec Ideal S1x512x64 .f32) (xk xv : FVec Ideal S2048x64 .bf16) :
    k0_pay3 (F := Ideal) x0 xk xv = shapeCast S1x512x64 (outTile (weights (scoreTile x0 xk)) xv) shapeCasts_S512x64_S1x512x64 := rfl

theorem scoreTile_apply (x0 : FVec Ideal S1x512x64 .f32) (xk : FVec Ideal S2048x64 .bf16) (r : Fin 512) (t : Fin 2048) :
    scoreTile x0 xk (ix2 r t) = kscore (fun d => x0 (ix3 (0 : Fin 1) r d)) (fun t d => xk (ix2 t d)) t := by
  unfold scoreTile kscore
  rw [scores_apply]
  refine Finset.sum_congr rfl fun d _ => ?_
  show (shapeCast S512x64 x0 shapeCasts_S1x512x64_S512x64 (ix2 r d) * Ideal.ofBits .f32 0x3F000000#32)
      * transpose S64x2048 [1, 0] xk transposes_S2048x64_p1_0_S64x2048 (ix2 d t) = _
  rw [shapeCast_1ab_ab_apply, transpose_ix2_apply]

theorem weights_apply (S : FVec Ideal S512x2048 .f32) (r : Fin 512) (t : Fin 2048) :
    weights S (ix2 r t) = Ideal.exp (S (ix2 r t) - rowmax (fun u => S (ix2 r u))) := by
  show Ideal.exp (S (ix2 r t) - broadcastTo S512x2048 (shapeCast S512x1 (rowMaxes S) shapeCasts_S512_S512x1) broadcasts_S512x1_S512x2048 (ix2 r t)) = _
  rw [col_lanes]
  exact congrArg (fun z => Ideal.exp (S (ix2 r t) - z)) (lanemax_apply S reduces_S512x2048_S512 (.inl rfl) rfl r)

theorem outTile_apply (E : FVec Ideal S512x2048 .f32) (xv : FVec Ideal S2048x64 .bf16) (r : Fin 512) (e : Fin 64) :
    outTile E xv (ix2 r e) = Ideal.div (∑ t : Fin 2048, E (ix2 r t) * xv (ix2 t e)) (∑ t : Fin 2048, E (ix2 r t)) := by
  show Ideal.div (matmul D2 none (truncf .bf16 E bitsLt_bf16_f32) xv (constant S512x64 .f32 0x00000000#32) (ix2 r e))
      (broadcastTo S512x64 (shapeCast S512x1 (totals E) shapeCasts_S512_S512x1) broadcasts_S512x1_S512x64 (ix2 r e)) = _
  rw [pv_apply, col_cols]
  exact congrArg (fun z => Ideal.div (∑ t : Fin 2048, E (ix2 r t) * xv (ix2 t e)) z) (lanesum_apply E reduces_S512x2048_S512 (.inl rfl) rfl r)

/-- THE BODY AT AN ELEMENT: entry (r, e) of the stored tile is the normalise-last attention of row r of the query tile
    against the two scratch contents. -/
theorem pay3_apply (x0 : FVec Ideal S1x512x64 .f32) (xk xv : FVec Ideal S2048x64 .bf16) (u : Fin 1) (r : Fin 512) (e : Fin 64) :
    k0_pay3 (F := Ideal) x0 xk xv (ix3 u r e)
      = kerOut (kscore (fun d => x0 (ix3 (0 : Fin 1) r d)) (fun t d => xk (ix2 t d))) (fun t => xv (ix2 t e)) := by
  rw [pay3_eq]
  refine (shapeCast_ab_1ab_apply _ _ u r e).trans ?_
  rw [outTile_apply]
  unfold kerOut
  simp only [weights_apply, scoreTile_apply]

end Cert.KernelIdeal.Payload

end
-- ==== Proof.KerBlocks.lean ====
/-
  The grid's blocks, read in the arrays.

  The kernel runs on a grid of 32 × 4 points: point t works on the (batch, head) pair t / 4 and on query tile t % 4.
  Each point sees four blocks: 512 query rows and 512 output rows of its pair (rows (t % 4) · 512 + r of the
  [32, 2048, 64] arrays), and all 2048 key rows and all 2048 value rows of its pair. This module says where each
  element of a block sits in its array, and that the output blocks of the 128 points together fill the output array.
  A block's coordinate on an axis is always (block index) × (block size) + (the coordinate inside the block); the block
  indices are the printed index maps, decided once over the 128 points.
-/
import proofs.«103621_j15436112462557_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The block indices of the four windows at point `t`: the pair `t / 4` on the leading axis for all four; the query
    tile `t % 4` on the row axis for the query and output windows, `0` there for the key and value windows (one block
    holds all rows); `0` on the last axis (one block holds all 64 columns). -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

/-- The pair a grid point works on, and the array row of row r of its query tile. -/
def pair (t : Fin cfg0.N) : Fin 32 := ⟨t.val / 4, by have := t.isLt; have hN : cfg0.N = 128 := N_0; omega⟩
def row (t : Fin cfg0.N) (r : Fin 512) : Fin 2048 := ⟨(t.val % 4) * 512 + r.val, by have := r.isLt; omega⟩

/-- Element (u, r, d) of point `t`'s query block is the query array at its pair, at row r of its tile, column d. -/
theorem iblk0_apply (c : Dev nD) (t : Fin cfg0.N) (u : Fin 1) (r : Fin 512) (d : Fin 64) :
    (iblk m c 0 t : Vec F S1x512x64 .f32) (ix3 u r d) = V m c main_v0 (ix3 (pair t) (row t r) d) := by
  obtain ⟨e0, e1, e2, -⟩ := idx_facts t
  unfold iblk
  rw [View.read_apply]
  show V m c main_v0 (((cfg0.win 0).blk t).view.emb (ix3 u r d)) = V m c main_v0 _
  refine congrArg _ ?_
  funext a; apply Fin.ext
  match a with
  | ⟨0, _⟩ => show win0_0.index t (0 : Fin 3) * 1 + 1 * u.val = t.val / 4; have := u.isLt; omega
  | ⟨1, _⟩ => show win0_0.index t (1 : Fin 3) * 512 + 1 * r.val = t.val % 4 * 512 + r.val; omega
  | ⟨2, _⟩ => show win0_0.index t (2 : Fin 3) * 64 + 1 * d.val = d.val; omega

/-- Element (u, s, d) of point `t`'s key block is the key array at its pair, row s, column d: the block holds all rows. -/
theorem iblk1_apply (c : Dev nD) (t : Fin cfg0.N) (u : Fin 1) (s : Fin 2048) (d : Fin 64) :
    (iblk m c 1 t : Vec F S1x2048x64 .f32) (ix3 u s d) = V m c main_v1 (ix3 (pair t) s d) := by
  obtain ⟨-, -, -, e0, e1, e2, -⟩ := idx_facts t
  unfold iblk
  rw [View.read_apply]
  show V m c main_v1 (((cfg0.win 1).blk t).view.emb (ix3 u s d)) = V m c main_v1 _
  refine congrArg _ ?_
  funext a; apply Fin.ext
  match a with
  | ⟨0, _⟩ => show win0_1.index t (0 : Fin 3) * 1 + 1 * u.val = t.val / 4; have := u.isLt; omega
  | ⟨1, _⟩ => show win0_1.index t (1 : Fin 3) * 2048 + 1 * s.val = s.val; omega
  | ⟨2, _⟩ => show win0_1.index t (2 : Fin 3) * 64 + 1 * d.val = d.val; omega

/-- Element (u, s, d) of point `t`'s value block is the value array at its pair, row s, column d: the block holds all rows. -/
theorem iblk2_apply (c : Dev nD) (t : Fin cfg0.N) (u : Fin 1) (s : Fin 2048) (d : Fin 64) :
    (iblk m c 2 t : Vec F S1x2048x64 .f32) (ix3 u s d) = V m c main_v2 (ix3 (pair t) s d) := by
  obtain ⟨-, -, -, -, -, -, e0, e1, e2, -⟩ := idx_facts t
  unfold iblk
  rw [View.read_apply]
  show V m c main_v2 (((cfg0.win 2).blk t).view.emb (ix3 u s d)) = V m c main_v2 _
  refine congrArg _ ?_
  funext a; apply Fin.ext
  match a with
  | ⟨0, _⟩ => show win0_2.index t (0 : Fin 3) * 1 + 1 * u.val = t.val / 4; have := u.isLt; omega
  | ⟨1, _⟩ => show win0_2.index t (1 : Fin 3) * 2048 + 1 * s.val = s.val; omega
  | ⟨2, _⟩ => show win0_2.index t (2 : Fin 3) * 64 + 1 * d.val = d.val; omega

/-- Where element (u, r, e) of the output block of point t sits in the output array. -/
theorem emb3 (t : Fin cfg0.N) (u : Fin 1) (r : Fin 512) (e : Fin 64) :
    ((cfg0.win 3).blk t).view.emb (ix3 u r e) = (ix3 (pair t) (row t r) e : S32x2048x64.Idx) := by
  obtain ⟨-, -, -, -, -, -, -, -, -, e0, e1, e2⟩ := idx_facts t
  funext a; apply Fin.ext
  match a with
  | ⟨0, _⟩ => show win0_3.index t (0 : Fin 3) * 1 + 1 * u.val = t.val / 4; have := u.isLt; omega
  | ⟨1, _⟩ => show win0_3.index t (1 : Fin 3) * 512 + 1 * r.val = t.val % 4 * 512 + r.val; omega
  | ⟨2, _⟩ => show win0_3.index t (2 : Fin 3) * 64 + 1 * e.val = e.val; omega

/-- Every index of the output array lies in the block some point writes back: index (p, s, e) lies in the block of the
    point `4 p + s / 512`, whose pair is `p` and whose tile holds rows `(s / 512) · 512 … (s / 512) · 512 + 511`. -/
theorem cover3 (i : S32x2048x64.Idx) : ∃ t : Fin cfg0.N, (cfg0.win 3).flush t = true ∧ i ∈ ((cfg0.win 3).blk t).view.set := by
  have hN : cfg0.N = 128 := N_0
  have h0 : (i 0).val < 32 := (i 0).isLt
  have h1 : (i 1).val < 2048 := (i 1).isLt
  have h2 : (i 2).val < 64 := (i 2).isLt
  obtain ⟨t, ht⟩ : ∃ t : Fin cfg0.N, t.val = (i 0).val * 4 + (i 1).val / 512 :=
    ⟨⟨(i 0).val * 4 + (i 1).val / 512, by rw [hN]; omega⟩, rfl⟩
  obtain ⟨-, -, -, -, -, -, -, -, -, e0, e1, e2⟩ := idx_facts t
  refine ⟨t, flush0_3 t, ?_⟩
  show i ∈ ((View.whole main_v3).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

end Cert.KernelIdeal.Blocks

end
-- ==== Proof.KerHost.lean ====
/-
  The three inputs as the region finds them.

  Before the region the program reshapes each of its three [2, 16, 2048, 64] arguments to [32, 2048, 64]: the
  (batch, head) pair (b, h) becomes the single leading index b · 16 + h, and the sequence and feature coordinates
  are unchanged, because a reshape keeps every element at its row-major position,
      ((b · 16 + h) · 2048 + s) · 64 + d  =  (((b · 16 + h) · 2048) + s) · 64 + d.
  So the reshaped array read at (b · 16 + h, s, d) is the launched argument at (b, h, s, d).
-/
import proofs.«103621_j15436112462557_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.HostIn

open Cert.KernelIdeal Cert.KernelIdeal.Gen

variable {F : FTy → Type} [FloatOps F]
variable (m : (ℓ : Loc nD τ sig) → Buf (Elt F) ℓ)

/-- The flat pair index of (batch b, head h). -/
def flat (b : Fin 2) (h : Fin 16) : Fin 32 := ⟨b.val * 16 + h.val, by have := b.isLt; have := h.isLt; omega⟩

/-- The reshape [2, 16, 2048, 64] → [32, 2048, 64] read at (b · 16 + h, s, d) is the operand at (b, h, s, d):
    the two indices have the same row-major position. -/
theorem reshape_read {α : Type} (x : S2x16x2048x64.Idx → α) (b : Fin 2) (h : Fin 16) (s : Fin 2048) (d : Fin 64) :
    shapeCast S32x2048x64 x shapeCasts_S2x16x2048x64_S32x2048x64 (ix3 (flat b h) s d) = x (ix4 b h s d) := by
  refine shapeCast_apply x _ (ix3 (flat b h) s d) (ix4 b h s d) ?_
  rw [Shape.rowMajor_val_four, Shape.rowMajor_val_three]
  show ((b.val * 16 + h.val) * 2048 + s.val) * 64 + d.val = ((b.val * 16 + h.val) * 2048 + s.val) * 64 + d.val
  rfl

theorem V_v0_apply (c : Dev nD) (b : Fin 2) (h : Fin 16) (s : Fin 2048) (d : Fin 64) :
    V m c main_v0 (ix3 (flat b h) s d) = m ((c : Thread nD τ).loc main_arg0) (ix4 b h s d) := by
  have e : (V m c main_v0 : S32x2048x64.Idx → Elt F .f32)
      = shapeCast S32x2048x64 (m ((c : Thread nD τ).loc main_arg0)) shapeCasts_S2x16x2048x64_S32x2048x64 := by
    show StableHlo.after hostOps0 (fun r => m (c, r)) (Proc.devRef .tc main_v0) = _
    after_results; rfl
  show (V m c main_v0 : S32x2048x64.Idx → Elt F .f32) (ix3 (flat b h) s d) = _
  rw [e]
  exact reshape_read _ b h s d

theorem V_v1_apply (c : Dev nD) (b : Fin 2) (h : Fin 16) (s : Fin 2048) (d : Fin 64) :
    V m c main_v1 (ix3 (flat b h) s d) = m ((c : Thread nD τ).loc main_arg1) (ix4 b h s d) := by
  have e : (V m c main_v1 : S32x2048x64.Idx → Elt F .f32)
      = shapeCast S32x2048x64 (m ((c : Thread nD τ).loc main_arg1)) shapeCasts_S2x16x2048x64_S32x2048x64 := by
    show StableHlo.after hostOps0 (fun r => m (c, r)) (Proc.devRef .tc main_v1) = _
    after_results; rfl
  show (V m c main_v1 : S32x2048x64.Idx → Elt F .f32) (ix3 (flat b h) s d) = _
  rw [e]
  exact reshape_read _ b h s d

theorem V_v2_apply (c : Dev nD) (b : Fin 2) (h : Fin 16) (s : Fin 2048) (d : Fin 64) :
    V m c main_v2 (ix3 (flat b h) s d) = m ((c : Thread nD τ).loc main_arg2) (ix4 b h s d) := by
  have e : (V m c main_v2 : S32x2048x64.Idx → Elt F .f32)
      = shapeCast S32x2048x64 (m ((c : Thread nD τ).loc main_arg2)) shapeCasts_S2x16x2048x64_S32x2048x64 := by
    show StableHlo.after hostOps0 (fun r => m (c, r)) (Proc.devRef .tc main_v2) = _
    after_results; rfl
  show (V m c main_v2 : S32x2048x64.Idx → Elt F .f32) (ix3 (flat b h) s d) = _
  rw [e]
  exact reshape_read _ b h s d

/-- Every pair index is the flat index of its (batch, head). -/
theorem flat_divmod (p : Fin 32) :
    flat ⟨p.val / 16, by have := p.isLt; omega⟩ ⟨p.val % 16, Nat.mod_lt _ (by decide)⟩ = p := by
  apply Fin.ext
  show p.val / 16 * 16 + p.val % 16 = p.val
  omega

end Cert.KernelIdeal.HostIn

end
-- ==== Proof.KerTail.lean ====
/-
  After the region: the kernel's result array.

  The region leaves its output as an array of shape [32, 2048, 64], one slab per (batch, head) pair with the pair
  (b, h) at slab 16 b + h. The program then only re-reads that array at the shape [2, 16, 2048, 64]: both shapes list
  the same elements in the same row-major order, so the result at (b, h, s, e) is the output array at (16 b + h, s, e).
-/
import proofs.«103621_j15436112462557_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
noncomputable section
open Idealize.ShloMosaic Idealize.ShloMosaic.TcCoe Idealize.SL.Sem Idealize.ShloMosaic.ValueIdx
open Idealize.ShloMosaic.Pipeline (Dat)
namespace Cert.KernelIdeal.Tail
open Cert.KernelIdeal Cert.KernelIdeal.Gen
variable {F : FTy → Type} [FloatOps F]
variable (m : (ℓ : Loc nD τ sig) → Buf (Elt F) ℓ)

/-- After the region the program only re-reads the output array at the result's shape: the result array is the
    region's output array cast to `[2, 16, 2048, 64]`. -/
theorem tail_array (c : Dev nD) :
    (Pipeline.afterTail₀ cfgs (dats m) 0 (V0 m) [hostOps1] c main_v4 : S2x16x2048x64.Idx → Elt F .f32)
      = shapeCast S2x16x2048x64 ((dats m 0 c).arrAt 3 cfg0.N : S32x2048x64.Idx → Elt F .f32) shapeCasts_S32x2048x64_S2x16x2048x64 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = (dats m 0 c).arrAt 3 cfg0.N := Pipeline.withArrays_arr spec0 launch0.win.arr_inj c _ _ 3
  exact congrArg (fun y : S32x2048x64.Idx → Elt F .f32 => shapeCast S2x16x2048x64 y shapeCasts_S32x2048x64_S2x16x2048x64) hw

/-- The result array at (b, h, s, e) is the region's output array at (16 b + h, s, e). -/
theorem tail_apply (c : Dev nD) (b : Fin 2) (h : Fin 16) (s : Fin 2048) (e : Fin 64) (p : Fin 32) (hp : p.val = b.val * 16 + h.val) :
    Pipeline.afterTail₀ cfgs (dats m) 0 (V0 m) [hostOps1] c main_v4 (ix4 b h s e)
      = (dats m 0 c).arrAt 3 cfg0.N (ix3 p s e) := by
  refine (congrFun (tail_array m c) (ix4 b h s e)).trans ?_
  generalize ((dats m 0 c).arrAt 3 cfg0.N : S32x2048x64.Idx → Elt F .f32) = y
  refine shapeCast_apply y _ (ix4 b h s e) (ix3 p s e) ?_
  show (S32x2048x64.rowMajor (ix3 p s e)).val = (S2x16x2048x64.rowMajor (ix4 b h s e)).val
  rw [Shape.rowMajor_val_three, Shape.rowMajor_val_four]
  show (p.val * 2048 + s.val) * 64 + e.val = ((b.val * 16 + h.val) * 2048 + s.val) * 64 + e.val
  rw [hp]

end Cert.KernelIdeal.Tail

end
-- ==== Proof.KerValue.lean ====
/-
  The kernel's result array, as one function of the three argument arrays.

  Grid point t works on pair p = t / 4 and on the query rows (t mod 4) · 512 + r. By the chain of contents after each point
  the output buffer at point t holds the body's arithmetic of the point's query tile and of the pair's key and value
  blocks, which at entry (r, e) is the normalise-last attention of query row ((t mod 4) · 512 + r) of pair p against all
  2048 key and value rows of pair p. The 128 blocks written back tile the [32, 2048, 64] output array, so that array ends
  at the attention of every (pair, row, column); the three [32, 2048, 64] inputs are the reshaped arguments and the result
  is the reshaped output, so the result at (b, h, s, e) is the attention of row s of head (b, h).
-/
import proofs.«103621_j15436112462557_2_alg».proof.Proof.KerChain
import proofs.«103621_j15436112462557_2_alg».proof.Proof.KerPayload
import proofs.«103621_j15436112462557_2_alg».proof.Proof.KerBlocks
import proofs.«103621_j15436112462557_2_alg».proof.Proof.KerHost
import proofs.«103621_j15436112462557_2_alg».proof.Proof.KerTail
import proofs.«103621_j15436112462557_2_alg».proof.Proof.Spec

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Blocks Cert.KernelIdeal.HostIn Cert.KernelIdeal.Payload Cert.KernelIdeal.Chain Cert.KernelIdeal.Tail
open Idealize.ShloMosaic.ValueIdx Cert.Attn
variable (m : (ℓ : Loc nD τ sig) → Buf (Elt Ideal) ℓ) (ρ : Dev nD → PrngReg)

/-- The attention of the flat [32, 2048, 64] arrays at an index (pair, row, column). -/
def flatAttn (Q K W : S32x2048x64.Idx → EReal) (i : S32x2048x64.Idx) : EReal :=
  kerOut
    (kscore (fun d => Q (ix3 (⟨(i 0).val, (i 0).isLt⟩ : Fin 32) (⟨(i 1).val, (i 1).isLt⟩ : Fin 2048) d))
      (fun t d => K (ix3 (⟨(i 0).val, (i 0).isLt⟩ : Fin 32) t d)))
    (fun t => W (ix3 (⟨(i 0).val, (i 0).isLt⟩ : Fin 32) t (⟨(i 2).val, (i 2).isLt⟩ : Fin 64)))

theorem flatAttn_ix3 (Q K W : S32x2048x64.Idx → EReal) (p : Fin 32) (s : Fin 2048) (e : Fin 64) :
    flatAttn Q K W (ix3 p s e)
      = kerOut (kscore (fun d => Q (ix3 p s d)) (fun t d => K (ix3 p t d))) (fun t => W (ix3 p t e)) := rfl

/-- Within a pair the key block does not change from a point to the next. -/
theorem keyBlock_const (c : Dev nD) (t : Fin cfg0.N) (h0 : ¬t.val % 4 = 0) :
    (iblk m c 1 t : Vec Ideal S1x2048x64 .f32) = iblk m c 1 (⟨t.val - 1, Nat.lt_of_le_of_lt (Nat.sub_le _ _) t.isLt⟩ : Fin cfg0.N) := by
  funext y
  obtain ⟨u, s, d, rfl⟩ : ∃ (u : Fin 1) (s : Fin 2048) (d : Fin 64), y = ix3 u s d := ⟨y 0, y 1, y 2, eq_ix3 y⟩
  rw [iblk1_apply, iblk1_apply]
  have hp : pair t = pair (⟨t.val - 1, Nat.lt_of_le_of_lt (Nat.sub_le _ _) t.isLt⟩ : Fin cfg0.N) := Fin.ext (by show t.val / 4 = (t.val - 1) / 4; omega)
  rw [hp]

/-- Nor does the value block. -/
theorem valueBlock_const (c : Dev nD) (t : Fin cfg0.N) (h0 : ¬t.val % 4 = 0) :
    (iblk m c 2 t : Vec Ideal S1x2048x64 .f32) = iblk m c 2 (⟨t.val - 1, Nat.lt_of_le_of_lt (Nat.sub_le _ _) t.isLt⟩ : Fin cfg0.N) := by
  funext y
  obtain ⟨u, s, d, rfl⟩ : ∃ (u : Fin 1) (s : Fin 2048) (d : Fin 64), y = ix3 u s d := ⟨y 0, y 1, y 2, eq_ix3 y⟩
  rw [iblk2_apply, iblk2_apply]
  have hp : pair t = pair (⟨t.val - 1, Nat.lt_of_le_of_lt (Nat.sub_le _ _) t.isLt⟩ : Fin cfg0.N) := Fin.ext (by show t.val / 4 = (t.val - 1) / 4; omega)
  rw [hp]

/-- WHAT POINT t WRITES BACK is block t of the flat attention of the arrays as the region finds them. -/
theorem flushed_eq (c : Dev nD) (t : Fin cfg0.N) :
    (dats m 0 c).flushed 3 t
      = ((cfg0.win 3).blk t).view.read (Elt Ideal) (flatAttn (V m c main_v0) (V m c main_v1) (V m c main_v2)) := by
  show (cfg0.win 3).cut (grid0.coords t) ((dats m 0 c).after 3 t) = _
  rw [after0_3, outsAt_eq m c (keyBlock_const m c) (valueBlock_const m c) t.val t rfl]
  funext y
  obtain ⟨u, r, e, rfl⟩ : ∃ (u : Fin 1) (r : Fin 512) (e : Fin 64), y = ix3 u r e := ⟨y 0, y 1, y 2, eq_ix3 y⟩
  rw [View.read_apply, emb3, flatAttn_ix3]
  show k0_pay3 (iblk m c 0 t) (k0_pay1 (iblk m c 1 t)) (k0_pay2 (iblk m c 2 t)) (ix3 u r e) = _
  rw [pay3_apply]
  simp only [pay1_apply, pay2_apply, iblk0_apply, iblk1_apply, iblk2_apply]
  exact (cast_eq _ _).symm

/-- THE OUTPUT ARRAY after the run. -/
theorem final3 (c : Dev nD) :
    (dats m 0 c).arrAt 3 cfg0.N = flatAttn (V m c main_v0) (V m c main_v1) (V m c main_v2) :=
  (dats m 0 c).arrAt_eq_of_cover 3 _ (fun t _ => flushed_eq m c t) cover3

/-- The attention of the [2, 16, 2048, 64] arrays at an index (batch, head, row, column), normalising last. -/
def attn (q k v : S2x16x2048x64.Idx → EReal) (i : S2x16x2048x64.Idx) : EReal :=
  kerOut
    (kscore (fun d => q (ix4 (⟨(i 0).val, (i 0).isLt⟩ : Fin 2) (⟨(i 1).val, (i 1).isLt⟩ : Fin 16) (⟨(i 2).val, (i 2).isLt⟩ : Fin 2048) d))
      (fun t d => k (ix4 (⟨(i 0).val, (i 0).isLt⟩ : Fin 2) (⟨(i 1).val, (i 1).isLt⟩ : Fin 16) t d)))
    (fun t => v (ix4 (⟨(i 0).val, (i 0).isLt⟩ : Fin 2) (⟨(i 1).val, (i 1).isLt⟩ : Fin 16) t (⟨(i 3).val, (i 3).isLt⟩ : Fin 64)))

theorem attn_ix4 (q k v : S2x16x2048x64.Idx → EReal) (b : Fin 2) (h : Fin 16) (s : Fin 2048) (e : Fin 64) :
    attn q k v (ix4 b h s e)
      = kerOut (kscore (fun d => q (ix4 b h s d)) (fun t d => k (ix4 b h t d))) (fun t => v (ix4 b h t e)) := rfl

/-- The result array at (b, h, s, e). -/
theorem result_apply (c : Dev nD) (b : Fin 2) (h : Fin 16) (s : Fin 2048) (e : Fin 64) :
    Pipeline.afterTail₀ cfgs (dats m) 0 (V0 m) [hostOps1] c main_v4 (ix4 b h s e)
      = attn (m ((c : Thread nD τ).loc main_arg0)) (m ((c : Thread nD τ).loc main_arg1)) (m ((c : Thread nD τ).loc main_arg2)) (ix4 b h s e) := by
  rw [tail_apply m c b h s e (flat b h) rfl, final3, flatAttn_ix3, attn_ix4]
  have e0 : (fun d : Fin 64 => V m c main_v0 (ix3 (flat b h) s d))
      = fun d => m ((c : Thread nD τ).loc main_arg0) (ix4 b h s d) := funext fun d => V_v0_apply m c b h s d
  have e1 : (fun (t : Fin 2048) (d : Fin 64) => V m c main_v1 (ix3 (flat b h) t d))
      = fun t d => m ((c : Thread nD τ).loc main_arg1) (ix4 b h t d) := funext fun t => funext fun d => V_v1_apply m c b h t d
  have e2 : (fun t : Fin 2048 => V m c main_v2 (ix3 (flat b h) t e))
      = fun t => m ((c : Thread nD τ).loc main_arg2) (ix4 b h t e) := funext fun t => V_v2_apply m c b h t e
  rw [e0, e1, e2]

/-- THE RUN, READ: every weakly fair execution terminates with the result array at the attention of the arguments and
    the arguments unchanged. -/
theorem run : θ_run defs (onTc (τ := τ) (main (F := Ideal))) ⟨m, fun _ => 0, ρ⟩ fun r => ∀ c : Dev nD,
      r.2.mem ((c.tc : Thread nD τ).loc main_v4)
        = attn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (funext fun i => by
        obtain ⟨b, hh, s, e, rfl⟩ : ∃ (b : Fin 2) (hh : Fin 16) (s : Fin 2048) (e : Fin 64), i = ix4 b hh s e :=
          ⟨i 0, i 1, i 2, i 3, eq_ix4 i⟩
        exact result_apply m c b hh s e),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Value

end
-- ==== Proof.RefValue.lean ====
/-
  The reference program's output element, read down to the inputs.

  For a batch b, a head h, a query row s and an output column e the reference computes, from the query row
  q = x0(b,h,s,·), the key rows k_t = x1(b,h,t,·) and the value column v_t = x2(b,h,t,e):
  the scores ⟨q, k_t⟩ · (1/√4), their maximum taken once more against −∞, the exponentials of the differences,
  each divided by 0 + their sum, and the sum of these weights times v_t. This is `refOut` of the score row.
-/
import proofs.«103621_j15436112462557_2_alg».proof.Proof.Spec
import proofs.«103621_j15436112462557_2_alg».proof.Proof.Gen.ReferenceIdeal.Read
import Idealize.ShloMosaic.Lib.ValueIdx
import Idealize.ShloMosaic.PureOps.Ideal.Laws

noncomputable section

namespace Cert.Attn

open Cert.ReferenceIdeal Cert.ReferenceIdeal.Read Idealize.ShloMosaic Idealize.ShloMosaic.ValueIdx

/-- The score row of query row `s` of batch `b` and head `h`: entry `t` is ⟨q_s, k_t⟩ · (1/√4). -/
abbrev srow (x0 x1 : FVec Ideal S2x16x2048x64 .f32) (b : Fin 2) (h : Fin 16) (s : Fin 2048) : Fin 2048 → EReal :=
  rscore (fun d => x0 (ix4 b h s d)) (fun t d => x1 (ix4 b h t d))

/-- The scale constant, read at the scalar shape's index, is 1/√4. -/
theorem ref_v1 (i : S_.Idx) : val_main_v1 (F := Ideal) i = C := rfl

/-- The product of the first contraction with the scale is the score. -/
theorem ref_v4 (x0 x1 : FVec Ideal S2x16x2048x64 .f32) (b : Fin 2) (h : Fin 16) (s t : Fin 2048) :
    val_main_v4 (F := Ideal) x0 x1 (ix4 b h s t) = srow x0 x1 b h s t := by
  rw [val_main_v4_apply, val_main_v2_apply, val_main_v3_apply, ref_v1]
  show (∑ k : Fin 64, x0 (lidx_main_v2 (ix4 b h s t) k) * x1 (ridx_main_v2 (ix4 b h s t) k)) * C = _
  unfold srow rscore
  refine congrArg (· * C) (Finset.sum_congr rfl fun k _ => ?_)
  have el : lidx_main_v2 (ix4 b h s t) k = ix4 b h s k := funext fun a => Fin.ext (by match a with | ⟨0, _⟩ => rfl | ⟨1, _⟩ => rfl | ⟨2, _⟩ => rfl | ⟨3, _⟩ => rfl)
  have er : ridx_main_v2 (ix4 b h s t) k = ix4 b h t k := funext fun a => Fin.ext (by match a with | ⟨0, _⟩ => rfl | ⟨1, _⟩ => rfl | ⟨2, _⟩ => rfl | ⟨3, _⟩ => rfl)
  rw [el, er]

/-- The reduced index (b, h, s) with the key coordinate `k` put back is (b, h, s, k). -/
theorem lift_ix3 (hr : S2x16x2048x2048.Reduces [3] S2x16x2048) (b : Fin 2) (h : Fin 16) (s : Fin 2048)
    (k : Fin (S2x16x2048x2048.size 3)) : hr.lift (ix3 b h s) k = ix4 b h s (⟨k.val, k.isLt⟩ : Fin 2048) :=
  funext fun a => Fin.ext (by match a with | ⟨0, _⟩ => rfl | ⟨1, _⟩ => rfl | ⟨2, _⟩ => rfl | ⟨3, _⟩ => rfl)

/-- The maximum-reduce over the key axis, from −∞, is the row maximum of the scores. -/
theorem ref_v5 (x0 x1 : FVec Ideal S2x16x2048x64 .f32) (b : Fin 2) (h : Fin 16) (s : Fin 2048) :
    val_main_v5 (F := Ideal) x0 x1 (ix3 b h s) = rowmax (srow x0 x1 b h s) := by
  have hr : S2x16x2048x2048.Reduces [3] S2x16x2048 := by decide
  unfold val_main_v5
  have key := Host.reduce_eq_fold_single (FloatOps.maximumf (F := Ideal) (φ := .f32)) (val_main_v4 (F := Ideal) x0 x1)
    (val_main_cst_1 (F := Ideal)) Gen.reducesTo_S2x16x2048x2048_S2x16x2048_d3 hr Gen.h_S_ (ix3 b h s)
  refine key.trans ?_
  have hf : (val_main_v4 (F := Ideal) x0 x1 ∘ hr.lift (ix3 b h s)) = fun k : Fin 2048 => srow x0 x1 b h s k :=
    funext fun k => (congrArg (val_main_v4 (F := Ideal) x0 x1) (lift_ix3 hr b h s k)).trans (ref_v4 x0 x1 b h s ⟨k.val, k.isLt⟩)
  unfold rowmax
  exact congrArg (fun f => Finset.fold max NI f (Finset.univ : Finset (Fin 2048))) hf

/-- The maximum taken once more against −∞. -/
theorem ref_v7 (x0 x1 : FVec Ideal S2x16x2048x64 .f32) (b : Fin 2) (h : Fin 16) (s : Fin 2048) :
    val_main_v7 (F := Ideal) x0 x1 (ix3 b h s) = max NI (rowmax (srow x0 x1 b h s)) := by
  rw [val_main_v7_apply, val_main_v6_apply, ref_v5]
  rfl

/-- The maximum broadcast back along the key axis. -/
theorem ref_v9 (x0 x1 : FVec Ideal S2x16x2048x64 .f32) (b : Fin 2) (h : Fin 16) (s t : Fin 2048) :
    val_main_v9 (F := Ideal) x0 x1 (ix4 b h s t) = max NI (rowmax (srow x0 x1 b h s)) := by
  rw [val_main_v9_apply, val_main_v8_apply]
  have e : idx_main_v8 (idx_main_v9 (ix4 b h s t)) = ix3 b h s := funext fun a => Fin.ext (by match a with | ⟨0, _⟩ => rfl | ⟨1, _⟩ => rfl | ⟨2, _⟩ => rfl)
  rw [e, ref_v7]

/-- The unnormalised weight: the exponential of the score less the maximum. -/
theorem ref_v11 (x0 x1 : FVec Ideal S2x16x2048x64 .f32) (b : Fin 2) (h : Fin 16) (s t : Fin 2048) :
    val_main_v11 (F := Ideal) x0 x1 (ix4 b h s t)
      = Ideal.exp (srow x0 x1 b h s t - max NI (rowmax (srow x0 x1 b h s))) := by
  rw [val_main_v11_apply, val_main_v10_apply, ref_v4, ref_v9]
  rfl

/-- The normaliser: zero plus the sum of the weights over the key axis. -/
theorem ref_v12 (x0 x1 : FVec Ideal S2x16x2048x64 .f32) (b : Fin 2) (h : Fin 16) (s : Fin 2048) :
    val_main_v12 (F := Ideal) x0 x1 (ix3 b h s)
      = Z + ∑ u : Fin 2048, Ideal.exp (srow x0 x1 b h s u - max NI (rowmax (srow x0 x1 b h s))) := by
  rw [val_main_v12_apply]
  refine congrArg (Z + ·) (Finset.sum_congr rfl fun k _ => ?_)
  have e : idx_main_v12 (ix3 b h s) k = ix4 b h s k := funext fun a => Fin.ext (by match a with | ⟨0, _⟩ => rfl | ⟨1, _⟩ => rfl | ⟨2, _⟩ => rfl | ⟨3, _⟩ => rfl)
  rw [e, ref_v11]

/-- The normaliser broadcast back along the key axis. -/
theorem ref_v14 (x0 x1 : FVec Ideal S2x16x2048x64 .f32) (b : Fin 2) (h : Fin 16) (s t : Fin 2048) :
    val_main_v14 (F := Ideal) x0 x1 (ix4 b h s t)
      = Z + ∑ u : Fin 2048, Ideal.exp (srow x0 x1 b h s u - max NI (rowmax (srow x0 x1 b h s))) := by
  rw [val_main_v14_apply, val_main_v13_apply]
  have e : idx_main_v13 (idx_main_v14 (ix4 b h s t)) = ix3 b h s := funext fun a => Fin.ext (by match a with | ⟨0, _⟩ => rfl | ⟨1, _⟩ => rfl | ⟨2, _⟩ => rfl)
  rw [e, ref_v12]

/-- The normalised weight. -/
theorem ref_v15 (x0 x1 : FVec Ideal S2x16x2048x64 .f32) (b : Fin 2) (h : Fin 16) (s t : Fin 2048) :
    val_main_v15 (F := Ideal) x0 x1 (ix4 b h s t)
      = Ideal.div (Ideal.exp (srow x0 x1 b h s t - max NI (rowmax (srow x0 x1 b h s))))
          (Z + ∑ u : Fin 2048, Ideal.exp (srow x0 x1 b h s u - max NI (rowmax (srow x0 x1 b h s)))) := by
  rw [val_main_v15_apply, ref_v11, ref_v14]
  rfl

/-- The reference's output element is `refOut` of the score row and the value column. -/
theorem ref_apply (x0 x1 x2 : FVec Ideal S2x16x2048x64 .f32) (b : Fin 2) (h : Fin 16) (s : Fin 2048) (e : Fin 64) :
    val_main_v16 (F := Ideal) x0 x1 x2 (ix4 b h s e)
      = refOut (rscore (fun d => x0 (ix4 b h s d)) (fun t d => x1 (ix4 b h t d))) (fun t => x2 (ix4 b h t e)) := by
  rw [val_main_v16_apply]
  unfold refOut
  refine Finset.sum_congr rfl fun k _ => ?_
  have el : lidx_main_v16 (ix4 b h s e) k = ix4 b h s k := funext fun a => Fin.ext (by match a with | ⟨0, _⟩ => rfl | ⟨1, _⟩ => rfl | ⟨2, _⟩ => rfl | ⟨3, _⟩ => rfl)
  have er : ridx_main_v16 (ix4 b h s e) k = ix4 b h k e := funext fun a => Fin.ext (by match a with | ⟨0, _⟩ => rfl | ⟨1, _⟩ => rfl | ⟨2, _⟩ => rfl | ⟨3, _⟩ => rfl)
  rw [el, er, ref_v15]

end Cert.Attn

end
-- ==== Proof.Algebra.lean ====
/-
  The extended-real algebra of scaled dot-product attention.

  On finite (real) inputs every quantity of both arrangements is the coercion of a real number, so each
  identity is an identity of real sums:
    * scaling the query by ½ before the dot product equals scaling the dot product by 1 / √4 = ½ afterwards;
    * the row maximum of finitely many reals is a real m, so taking the maximum with −∞ once more changes nothing;
    * the weights' total D = Σ_t e^{s_t − m} is a positive real, so dividing the finished sum by D equals
      dividing every weight by 0 + D first.
-/
import proofs.«103621_j15436112462557_2_alg».proof.Proof.Spec
import Idealize.ShloMosaic.PureOps.Ideal.Laws

noncomputable section

namespace Cert.Attn

open Idealize.ShloMosaic

/-! ### The constants -/

/-- The pattern of `0.5` denotes the real `1/2`. -/
theorem H_eq : H = ((1 / 2 : ℝ) : EReal) := by
  simp [H, Ideal.ofBits, Ideal.ieee, -EReal.coe_mul]; norm_num

/-- The pattern of `-∞` denotes `⊥`. -/
theorem NI_eq : NI = ⊥ := by
  simp [NI, Ideal.ofBits, Ideal.ieee]

/-- The pattern of `+0.0` denotes `0`. -/
theorem Z_eq : Z = 0 := Ideal.ofBits_zero_f32

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `4.0` denotes the real `4`. -/
theorem ofBits_four : Ideal.ofBits .f32 0x40800000#32 = ((4 : ℝ) : EReal) := by
  simp [Ideal.ofBits, Ideal.ieee, -EReal.coe_mul]; norm_num

/-- `1 / √4 = 1/2`. -/
theorem C_eq : C = ((1 / 2 : ℝ) : EReal) := by
  have h4 : Real.sqrt 4 = 2 := by
    rw [show (4 : ℝ) = 2 ^ 2 by norm_num]; exact Real.sqrt_sq (by norm_num)
  unfold C
  rw [ofBits_one, ofBits_four, Ideal.sqrt_coe, if_neg (by norm_num), h4,
    Ideal.div_coe (by norm_num : (2 : ℝ) ≠ 0), ← EReal.coe_mul]
  norm_num

/-! ### Finite sums of reals -/

/-- The coercion of a finite real sum is the sum of the coercions. -/
theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-! ### The scores -/

theorem kscore_eq_rscore (q : Fin 64 → EReal) (k : Fin 2048 → Fin 64 → EReal)
    (hq : ∀ d, ∃ r : ℝ, q d = (r : EReal)) (hk : ∀ t d, ∃ r : ℝ, k t d = (r : EReal)) :
    kscore q k = rscore q k := by
  choose qr hqr using hq
  choose kr hkr using hk
  funext t
  unfold kscore rscore
  rw [H_eq, C_eq]
  simp only [hqr, hkr, ← EReal.coe_mul, ← coe_sum]
  congr 1
  rw [Finset.sum_mul]
  exact Finset.sum_congr rfl (fun d _ => by ring)

theorem kscore_real (q : Fin 64 → EReal) (k : Fin 2048 → Fin 64 → EReal)
    (hq : ∀ d, ∃ r : ℝ, q d = (r : EReal)) (hk : ∀ t d, ∃ r : ℝ, k t d = (r : EReal)) :
    ∀ t, ∃ r : ℝ, kscore q k t = (r : EReal) := by
  choose qr hqr using hq
  choose kr hkr using hk
  intro t
  refine ⟨∑ d : Fin 64, (qr d * (1 / 2)) * kr t d, ?_⟩
  unfold kscore
  rw [H_eq]
  simp only [hqr, hkr, ← EReal.coe_mul, ← coe_sum]

/-! ### The row maximum -/

/-- The maximum of finitely many reals, folded from `-∞` over a nonempty index set, is a real. -/
theorem rowmax_real (s : Fin 2048 → EReal) (hs : ∀ t, ∃ r : ℝ, s t = (r : EReal)) :
    ∃ m : ℝ, rowmax s = (m : EReal) := by
  have h1 : rowmax s ≠ ⊥ := by
    obtain ⟨r, hr⟩ := hs 0
    have h0 : s 0 ≤ rowmax s := by
      unfold rowmax
      rw [Finset.le_fold_max]
      exact Or.inr ⟨0, Finset.mem_univ _, le_refl _⟩
    intro h
    rw [h, hr] at h0
    exact absurd h0 (not_le.mpr (EReal.bot_lt_coe r))
  have h2 : rowmax s ≠ ⊤ := by
    apply ne_of_lt
    unfold rowmax
    rw [Finset.fold_max_lt]
    refine ⟨?_, ?_⟩
    · rw [NI_eq]; exact bot_lt_top
    · intro x _
      obtain ⟨r, hr⟩ := hs x
      rw [hr]; exact EReal.coe_lt_top r
  exact ⟨(rowmax s).toReal, (EReal.coe_toReal h2 h1).symm⟩

/-! ### The outputs -/

theorem kerOut_eq_refOut (s v : Fin 2048 → EReal)
    (hs : ∀ t, ∃ r : ℝ, s t = (r : EReal)) (hv : ∀ t, ∃ r : ℝ, v t = (r : EReal)) :
    kerOut s v = refOut s v := by
  obtain ⟨m, hm⟩ := rowmax_real s hs
  choose sr hsr using hs
  choose vr hvr using hv
  have hmax : max NI (rowmax s) = rowmax s := by
    rw [NI_eq]; exact max_eq_right bot_le
  have hD : (∑ t : Fin 2048, Real.exp (sr t - m)) ≠ 0 :=
    ne_of_gt (Finset.sum_pos (fun i _ => Real.exp_pos _) Finset.univ_nonempty)
  unfold kerOut refOut
  rw [hmax, hm, Z_eq, zero_add]
  simp only [hsr, hvr, ← EReal.coe_sub, Ideal.exp_coe, ← EReal.coe_mul, ← coe_sum]
  simp only [Ideal.div_coe hD, ← EReal.coe_mul, ← coe_sum]
  congr 1
  rw [Finset.sum_mul]
  exact Finset.sum_congr rfl (fun t _ => by ring)

end Cert.Attn

end
-- ==== Proof.Finite.lean ====
/-
  The precondition, read as finiteness.

  The certificate's precondition is the conjunction of three tests, one per input: "every element x satisfies
  |x| < +∞". Over the extended reals |x| is max x (-x), the comparison is the strict order, and the only two
  extended reals whose absolute value is not strictly below +∞ are the two infinities. So the precondition holding
  says exactly that every element of every input is a real number.
-/
import proofs.«103621_j15436112462557_2_alg».proof.Pre_finite_inputs
import proofs.«103621_j15436112462557_2_alg».proof.Proof.Gen.Pre_finite_inputs
import Idealize.ShloMosaic.PureOps.Ideal.Laws
import Idealize.ShloMosaic.Lib.ValueIdx
import Idealize.ShloMosaic.Lib.ReduceAll

noncomputable section

namespace Cert.Attn

open Idealize.ShloMosaic

/-- The pattern `0x7F800000` is `+∞`. -/
theorem ofBits_pos_inf : Ideal.ofBits .f32 0x7F800000#32 = ⊤ := by simp [Ideal.ofBits, Ideal.ieee]

/-- An extended real whose absolute value `max a (-a)` is strictly below `+∞` is a real number:
    at `⊤` the maximum is `⊤` itself, at `⊥` it is `-⊥ = ⊤`, and neither is below `⊤`. -/
theorem real_of_abs_lt_inf (a : EReal)
    (h : Ideal.cmp .olt (max a (-a)) (Ideal.ofBits .f32 0x7F800000#32) = 1#1) : ∃ r : ℝ, a = (r : EReal) := by
  rw [ofBits_pos_inf] at h
  induction a using EReal.rec with
  | bot => simp [Ideal.cmp] at h
  | coe r => exact ⟨r, rfl⟩
  | top => simp [Ideal.cmp] at h

/-- The rank-0 shape has one index. -/
instance subsingleton_rank0_idx : Subsingleton Cert.Pre_finite_inputs.S_.Idx := ⟨fun a b => funext fun d => d.elim0⟩

section
open Cert.Pre_finite_inputs Cert.Pre_finite_inputs.Facts

/-- One test of the precondition: if the conjunction over all indices of `|x i| < +∞` is true, every `x i` is real. -/
theorem real_of_all_abs_lt_inf [Cert.Pre_finite_inputs.Facts] (x : FVec Ideal S2x16x2048x64 .f32)
    (init : IVec S_ 1) (j : S_.Idx)
    (h : Host.reduce IntOp.andi
        (cmpf .olt (Host.absf x) (broadcastInDim S2x16x2048x64 ![] bcast_S_S2x16x2048x64 (constant S_ .f32 0x7F800000#32)))
        init reducesTo_S2x16x2048x64_S_d0_1_2_3 h_S_ j = 1#1)
    (i : S2x16x2048x64.Idx) : ∃ r : ℝ, x i = (r : EReal) :=
  real_of_abs_lt_inf (x i) (Host.reduce_andi_all _ init reducesTo_S2x16x2048x64_S_d0_1_2_3 h_S_ j h i)

end

/-- The precondition holding says every element of each of the three inputs is a real number. -/
theorem real_of_finite_inputs [Cert.Pre_finite_inputs.Facts]
    (x0 x1 x2 : FVec Ideal Cert.Pre_finite_inputs.S2x16x2048x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_all_abs_lt_inf x0 _ _ h0' i, fun i => real_of_all_abs_lt_inf x1 _ _ h1 i,
    fun i => real_of_all_abs_lt_inf x2 _ _ h2 i⟩

end Cert.Attn

end
-- ==== Proof.lean ====
/-
  Scaled dot-product attention: a fused kernel against jnp's softmax attention, equal over the extended reals on finite
  inputs.

  For every (batch, head) pair and query row s both programs compute  out(s, ·) = Σ_t softmax_t(⟨q_s, k_t⟩ / 2) · v_t.
  The kernel scales the query by ½ before the dot product, subtracts the row maximum, exponentiates, multiplies the
  unnormalised weights into the values and divides the finished sum by the weights' total; the reference scales the
  finished dot product by 1 / √4, takes the maximum (once more against −∞), normalises every weight by 0 + the total and
  then multiplies into the values. On finite inputs every intermediate quantity is a real number, the total of the weights
  is a positive real, √4 = 2, and the two arrangements are the same real number: moving the factor ½ across the dot
  product and the division across the sum are the distributive law, which holds on reals (it fails at the infinities,
  which is why the finiteness of the inputs is used).

  The kernel's result array is read off its run (the output block of grid point t is the attention of 512 query rows of
  one pair against that pair's key and value blocks, which the first of the pair's four points has left in the scratch
  buffers; the 128 blocks tile the array; the arrays are reshapes of the arguments and the result a reshape of the array),
  the reference's result is read one host operation at a time, and the two are joined index by index.
  The idealization rewrote nothing, so `preserves` is trivial; the three frames are the programs' runs with the result
  dropped.
-/
import proofs.«103621_j15436112462557_2_alg».proof.Defs
import proofs.«103621_j15436112462557_2_alg».proof.Proof.Gen.Kernel
import proofs.«103621_j15436112462557_2_alg».proof.Proof.Gen.Kernel.Frame
import proofs.«103621_j15436112462557_2_alg».proof.Proof.Gen.KernelIdeal
import proofs.«103621_j15436112462557_2_alg».proof.Proof.Gen.KernelIdeal.Frame
import proofs.«103621_j15436112462557_2_alg».proof.Proof.Gen.ReferenceIdeal
import proofs.«103621_j15436112462557_2_alg».proof.Proof.Gen.ReferenceIdeal.Run
import proofs.«103621_j15436112462557_2_alg».proof.Proof.Gen.ReferenceIdeal.Read
import proofs.«103621_j15436112462557_2_alg».proof.Proof.Gen.Pre_finite_inputs
import proofs.«103621_j15436112462557_2_alg».proof.Proof.KerValue
import proofs.«103621_j15436112462557_2_alg».proof.Proof.RefValue
import proofs.«103621_j15436112462557_2_alg».proof.Proof.Algebra
import proofs.«103621_j15436112462557_2_alg».proof.Proof.Finite
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- Both runs end, from memories agreeing on the arguments, with the same result array: the kernel's is the
    normalise-last attention of the arguments, the reference's the normalise-first one, and on finite arguments they are
    the same extended real at every index. -/
theorem algebraic : Cert.algebraic_KernelIdeal_ReferenceIdeal := by
  intro m ρ m' ρ' hpre hagree
  refine ⟨fun c => Cert.KernelIdeal.Value.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2]
  obtain ⟨hq, hk, hv⟩ := Cert.Attn.real_of_finite_inputs _ _ _ (hpre c)
  funext i
  obtain ⟨b, hh, s, e, rfl⟩ : ∃ (b : Fin 2) (hh : Fin 16) (s : Fin 2048) (e : Fin 64), i = ix4 b hh s e :=
    ⟨i 0, i 1, i 2, i 3, eq_ix4 i⟩
  rw [Cert.Attn.ref_apply]
  beta_reduce
  rw [Cert.KernelIdeal.Value.attn_ix4, ← Cert.Attn.kscore_eq_rscore _ _ (fun d => hq _) (fun t d => hk _)]
  exact (Cert.Attn.kerOut_eq_refOut _ _ (Cert.Attn.kscore_real _ _ (fun d => hq _) (fun t d => hk _)) (fun t => hv _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
